-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x512x16x16 : Shape := ⟨4, ![128, 512, 16, 16]⟩
abbrev S_ : Shape := ⟨0, ![]⟩

class Facts : Prop where
  bcast_S_S128x512x16x16 : S_.BroadcastsInDim S128x512x16x16 (![] : Fin 0 → Fin S128x512x16x16.rank)
  reducesTo_S128x512x16x16_S_d0_1_2_3 : S128x512x16x16.ReducesTo [0, 1, 2, 3] S_
  h_S_ : 0 < S_.numel

variable [Facts]

def fn {F : FTy → Type} [FloatOps F] (main_arg0 : FVec F S128x512x16x16 .f32) : IVec S_ 1 :=
  let main_v0 : FVec F S128x512x16x16 .f32 := Host.absf main_arg0
  let main_cst : FVec F S_ .f32 := constant S_ .f32 0x7F800000#32
  let main_v1 : FVec F S128x512x16x16 .f32 := broadcastInDim S128x512x16x16 ![] bcast_S_S128x512x16x16 main_cst
  let main_v2 : IVec S128x512x16x16 1 := cmpf .olt main_v0 main_v1
  let main_c : IVec S_ 1 := constantI S_ 1 1#1
  let main_v3 : IVec S_ 1 := (fun x v => Host.reduce IntOp.andi x v reducesTo_S128x512x16x16_S_d0_1_2_3 h_S_) main_v2 main_c
  main_v3
-- ==== Kernel.lean ====
abbrev S128x512x16x16 : Shape := ⟨4, ![128, 512, 16, 16]⟩
abbrev S128x16x16x512 : Shape := ⟨4, ![128, 16, 16, 512]⟩
abbrev S128x256x512 : Shape := ⟨3, ![128, 256, 512]⟩
abbrev S128x512 : Shape := ⟨2, ![128, 512]⟩
abbrev S8x256x512 : Shape := ⟨3, ![8, 256, 512]⟩
abbrev S8x512 : Shape := ⟨2, ![8, 512]⟩

abbrev nBuf : Space → Nat
  | .hbm => 4
  | .vmem => 4
  | .smem => 0
  | _ => 0

abbrev bufTy : (tb : Table) → Fin (tcTables nBuf tb) → BufTy
  | .hbm, ⟨0, _⟩ => ⟨S128x512x16x16, .f32⟩
  | .hbm, ⟨1, _⟩ => ⟨S128x16x16x512, .f32⟩
  | .hbm, ⟨2, _⟩ => ⟨S128x256x512, .f32⟩
  | .hbm, ⟨3, _⟩ => ⟨S128x512, .f32⟩
  | .local _ .vmem, ⟨0, _⟩ => ⟨S8x256x512, .f32⟩
  | .local _ .vmem, ⟨1, _⟩ => ⟨S8x256x512, .f32⟩
  | .local _ .vmem, ⟨2, _⟩ => ⟨S8x512, .f32⟩
  | .local _ .vmem, ⟨3, _⟩ => ⟨S8x512, .f32⟩
  | _, _ => ⟨S128x512x16x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_v1 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  transposes_S128x512x16x16_S128x16x16x512_0_2_3_1 : S128x512x16x16.Transposes [0, 2, 3, 1] S128x16x16x512
  shapeCasts_S128x16x16x512_S128x256x512 : S128x16x16x512.ShapeCasts S128x256x512
  inb_S8x256x512_S8x256x512_0_0_0 : ∀ a, (![0, 0, 0] : Fin 3 → Nat) a + S8x256x512.size a ≤ S8x256x512.size a
  h_S8x256x512 : 0 < S8x256x512.numel
  shapeCasts_S8x256x512_S8x256x512 : S8x256x512.ShapeCasts S8x256x512
  reduces_S8x256x512_S8x512 : S8x256x512.Reduces [1] S8x512
  inb_S8x512_S8x512_0_0 : ∀ a, (![0, 0] : Fin 2 → Nat) a + S8x512.size a ≤ S8x512.size a
  h_S8x512 : 0 < S8x512.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x512.size a ≤ S128x256x512.size a
  hwx0_0 : ∀ i : grid0.Coords, EltTy.bits .f32 = 32 ∨ (Rect.block (s := S128x256x512) S8x256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x512.size a ≤ S128x512.size a
  hwx0_1 : ∀ i : grid0.Coords, EltTy.bits .f32 = 32 ∨ (Rect.block (s := S128x512) S8x512.size (cc0_transform_1 i) (hinb0_1 i)).WholeWords (EltTy.packing .f32)

variable [Facts₀]

abbrev win0_0 : Pipeline.Window sig grid0 :=
  Pipeline.Window.ofSpec (Memref.whole main_call0_v1) S8x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S128x512x16x16 : Shape := ⟨4, ![128, 512, 16, 16]⟩
abbrev S65536x256 : Shape := ⟨2, ![65536, 256]⟩
abbrev S65536x1 : Shape := ⟨2, ![65536, 1]⟩
abbrev S8192x256 : Shape := ⟨2, ![8192, 256]⟩
abbrev S8192x1 : Shape := ⟨2, ![8192, 1]⟩
abbrev S8192 : Shape := ⟨1, ![8192]⟩
abbrev S128x512 : Shape := ⟨2, ![128, 512]⟩

abbrev nBuf : Space → Nat
  | .hbm => 4
  | .vmem => 4
  | .smem => 0
  | _ => 0

abbrev bufTy : (tb : Table) → Fin (tcTables nBuf tb) → BufTy
  | .hbm, ⟨0, _⟩ => ⟨S128x512x16x16, .f32⟩
  | .hbm, ⟨1, _⟩ => ⟨S65536x256, .f32⟩
  | .hbm, ⟨2, _⟩ => ⟨S65536x1, .f32⟩
  | .hbm, ⟨3, _⟩ => ⟨S128x512, .f32⟩
  | .local _ .vmem, ⟨0, _⟩ => ⟨S8192x256, .f32⟩
  | .local _ .vmem, ⟨1, _⟩ => ⟨S8192x256, .f32⟩
  | .local _ .vmem, ⟨2, _⟩ => ⟨S8192x1, .f32⟩
  | .local _ .vmem, ⟨3, _⟩ => ⟨S8192x1, .f32⟩
  | _, _ => ⟨S128x512x16x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S128x512x16x16_S65536x256 : S128x512x16x16.ShapeCasts S65536x256
  inb_S8192x256_S8192x256_0_0 : ∀ a, (![0, 0] : Fin 2 → Nat) a + S8192x256.size a ≤ S8192x256.size a
  h_S8192x256 : 0 < S8192x256.numel
  shapeCasts_S8192x256_S8192x256 : S8192x256.ShapeCasts S8192x256
  reduces_S8192x256_S8192 : S8192x256.Reduces [1] S8192
  shapeCasts_S8192_S8192x1 : S8192.ShapeCasts S8192x1
  inb_S8192x1_S8192x1_0_0 : ∀ a, (![0, 0] : Fin 2 → Nat) a + S8192x1.size a ≤ S8192x1.size a
  h_S8192x1 : 0 < S8192x1.numel
  shapeCasts_S65536x1_S128x512 : S65536x1.ShapeCasts S128x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x256.size a ≤ S65536x256.size a
  hwx0_0 : ∀ i : grid0.Coords, EltTy.bits .f32 = 32 ∨ (Rect.block (s := S65536x256) S8192x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x1.size a ≤ S65536x1.size a
  hwx0_1 : ∀ i : grid0.Coords, EltTy.bits .f32 = 32 ∨ (Rect.block (s := S65536x1) S8192x1.size (cc0_transform_1 i) (hinb0_1 i)).WholeWords (EltTy.packing .f32)

variable [Facts₀]

abbrev win0_0 : Pipeline.Window sig grid0 :=
  Pipeline.Window.ofSpec (Memref.whole main_v0) S8192x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== Proof.PoolSpec.lean ====
/-
  Global average pooling of an NCHW array, as ONE function of the argument array.

  For an array `x` of shape [128, 512, 16, 16] the pooled value at (n, c) is
      (∑ k < 256, x[n, c, k / 16, k % 16]) · s
  on the extended reals, where `s` is the value of the f32 word 0x3B800000 (the dyadic 1/256; it is the
  same word in both programs, so it is never evaluated). Numbering the 16 × 16 spatial positions of one
  channel by k = 16 h + w is the row-major order of the last two axes; both programs meet the positions
  in exactly this order, one after moving the channel axis last and merging (h, w), the other after
  merging (n, c) and (h, w).

  This module also reads, index by index, the layout operations and the lane sums the two programs are
  made of: all of them are statements about pure functions on index types, with no program in sight.
-/
import Idealize.ShloMosaic.PureOps.Ideal
import Idealize.ShloMosaic.PureOps.Ideal.Laws
import Idealize.ShloMosaic.Lib.ValueIdx
import Idealize.ShloMosaic.Lib.Pipeline.Value

noncomputable section

namespace Cert.Pool

open Idealize.ShloMosaic Idealize.ShloMosaic.ValueIdx

/-- The argument's shape, and the result's. -/
abbrev SIn : Shape := ⟨4, ![128, 512, 16, 16]⟩
abbrev SOut : Shape := ⟨2, ![128, 512]⟩

/-- Spatial position `k = 16 h + w` of channel `c` of image `n`. -/
def cell (n : Fin 128) (c : Fin 512) (k : Fin 256) : SIn.Idx :=
  ix4 n c (⟨k.val / 16, by omega⟩ : Fin 16) (⟨k.val % 16, by omega⟩ : Fin 16)

theorem cell_val0 (n : Fin 128) (c : Fin 512) (k : Fin 256) : (cell n c k 0).val = n.val := rfl
theorem cell_val1 (n : Fin 128) (c : Fin 512) (k : Fin 256) : (cell n c k 1).val = c.val := rfl
theorem cell_val2 (n : Fin 128) (c : Fin 512) (k : Fin 256) : (cell n c k 2).val = k.val / 16 := rfl
theorem cell_val3 (n : Fin 128) (c : Fin 512) (k : Fin 256) : (cell n c k 3).val = k.val % 16 := rfl

/-- The pooled value at (n, c): the sum of the channel's 256 entries, times the scale word's value. -/
def meanAt (x : SIn.Idx → EReal) (n : Fin 128) (c : Fin 512) : EReal :=
  (∑ k : Fin 256, x (cell n c k)) * Ideal.ofBits .f32 0x3B800000#32

/-- The pooled array. -/
def mean (x : SIn.Idx → EReal) : SOut.Idx → EReal := fun i => meanAt x (i 0) (i 1)

theorem mean_ix2 (x : SIn.Idx → EReal) (n : Fin 128) (c : Fin 512) : mean x (ix2 n c) = meanAt x n c := rfl

/-- Row `r = 512 n + c` of the merged (image, channel) axis belongs to image `r / 512` … -/
def imgOf (r : Fin 65536) : Fin 128 := ⟨r.val / 512, by have := r.isLt; omega⟩
/-- … and channel `r % 512`. -/
def chanOf (r : Fin 65536) : Fin 512 := ⟨r.val % 512, by omega⟩

/-- The same values laid out as one column of 65536 rows, row `r = 512 n + c`. -/
def meanCol (x : SIn.Idx → EReal) : (⟨2, ![65536, 1]⟩ : Shape).Idx → EReal := fun i =>
  meanAt x (imgOf (i 0)) (chanOf (i 0))

/-- Row 512 n + c of the column is the pooled value at (n, c). -/
theorem meanCol_row (x : SIn.Idx → EReal) (n : Fin 128) (c : Fin 512) :
    meanCol x (ix2 (⟨n.val * 512 + c.val, by have := n.isLt; have := c.isLt; omega⟩ : Fin 65536) (0 : Fin 1))
      = meanAt x n c := by
  have hc : c.val < 512 := c.isLt
  have e1 : imgOf (⟨n.val * 512 + c.val, by have := n.isLt; omega⟩ : Fin 65536) = n :=
    Fin.ext (by show (n.val * 512 + c.val) / 512 = n.val; omega)
  have e2 : chanOf (⟨n.val * 512 + c.val, by have := n.isLt; omega⟩ : Fin 65536) = c :=
    Fin.ext (by show (n.val * 512 + c.val) % 512 = c.val; omega)
  show meanAt x (imgOf _) (chanOf _) = _
  rw [e1, e2]

/-! ## Layout operations read at an index -/

section Layout
variable {α : Type}

/-- Moving the channel axis last ([n, c, h, w] → [n, h, w, c]) and then merging (h, w) into one axis of
    256 reads, at (n, k, c), the argument at (n, c, k / 16, k % 16). -/
theorem channelsLast_merge_apply (x : SIn.Idx → α)
    (ht : SIn.Transposes [0, 2, 3, 1] ⟨4, ![128, 16, 16, 512]⟩)
    (hs : (⟨4, ![128, 16, 16, 512]⟩ : Shape).ShapeCasts ⟨3, ![128, 256, 512]⟩)
    (n : Fin 128) (k : Fin 256) (c : Fin 512) :
    shapeCast ⟨3, ![128, 256, 512]⟩ (transpose ⟨4, ![128, 16, 16, 512]⟩ [0, 2, 3, 1] x ht) hs (ix3 n k c)
      = x (cell n c k) := by
  have hk : k.val < 256 := k.isLt
  refine (shapeCast_apply _ hs (ix3 n k c)
    (ix4 n (⟨k.val / 16, by omega⟩ : Fin 16) (⟨k.val % 16, by omega⟩ : Fin 16) c) ?_).trans ?_
  · rw [Shape.rowMajor_val_four, Shape.rowMajor_val_three]
    show ((n.val * 16 + k.val / 16) * 16 + k.val % 16) * 512 + c.val = (n.val * 256 + k.val) * 512 + c.val
    omega
  · refine transpose_apply [0, 2, 3, 1] x ht _ (cell n c k) fun b => ?_
    match b with
    | ⟨0, _⟩ => rfl
    | ⟨1, _⟩ => rfl
    | ⟨2, _⟩ => rfl
    | ⟨3, _⟩ => rfl

/-- Merging (n, c) into one axis of 65536 rows and (h, w) into one of 256 columns reads, at (r, k), the
    argument at (r / 512, r % 512, k / 16, k % 16). -/
theorem rows_merge_apply (x : SIn.Idx → α) (hs : SIn.ShapeCasts ⟨2, ![65536, 256]⟩)
    (n : Fin 128) (c : Fin 512) (k : Fin 256) (r : Fin 65536) (hr : r.val = n.val * 512 + c.val) :
    shapeCast ⟨2, ![65536, 256]⟩ x hs (ix2 r k) = x (cell n c k) := by
  have hk : k.val < 256 := k.isLt
  refine shapeCast_apply x hs (ix2 r k) (cell n c k) ?_
  rw [Shape.rowMajor_val_four, Shape.rowMajor_val_two]
  show ((n.val * 512 + c.val) * 16 + k.val / 16) * 16 + k.val % 16 = r.val * 256 + k.val
  omega

/-- A column of 65536 rows viewed as [128, 512] reads, at (n, c), row 512 n + c. -/
theorem col_split_apply (y : (⟨2, ![65536, 1]⟩ : Shape).Idx → α)
    (hs : (⟨2, ![65536, 1]⟩ : Shape).ShapeCasts SOut) (n : Fin 128) (c : Fin 512) :
    shapeCast SOut y hs (ix2 n c)
      = y (ix2 (⟨n.val * 512 + c.val, by have := n.isLt; have := c.isLt; omega⟩ : Fin 65536) (0 : Fin 1)) := by
  refine shapeCast_apply y hs (ix2 n c) _ ?_
  rw [Shape.rowMajor_val_two, Shape.rowMajor_val_two]
  show (n.val * 512 + c.val) * 1 + 0 = n.val * 512 + c.val
  omega

/-- A vector of 8192 entries viewed as a column [8192, 1] reads, at (r, 0), entry r. -/
theorem vec_col_apply (v : (⟨1, ![8192]⟩ : Shape).Idx → α)
    (hs : (⟨1, ![8192]⟩ : Shape).ShapeCasts ⟨2, ![8192, 1]⟩) (r : Fin 8192) (z : Fin 1) :
    shapeCast ⟨2, ![8192, 1]⟩ v hs (ix2 r z) = v (ix1 r) := by
  have hz : z.val = 0 := by omega
  refine shapeCast_apply v hs (ix2 r z) (ix1 r) ?_
  rw [Shape.rowMajor_val_one, Shape.rowMajor_val_two]
  show r.val = r.val * 1 + z.val
  omega

end Layout

/-! ## The lane sums at the exact values -/

/-- The sum over the middle axis of an [8, 256, 512] block, at (p, q): the 256 entries (p, k, q). The
    accumulator word is the zero word, the neutral element, so no initial value appears. -/
theorem sum_mid_apply (P : FVec Ideal ⟨3, ![8, 256, 512]⟩ .f32)
    (h : (⟨3, ![8, 256, 512]⟩ : Shape).Reduces [1] ⟨2, ![8, 512]⟩) (p : Fin 8) (q : Fin 512) :
    multiReduction .add [1] ⟨2, ![8, 512]⟩ P 0x00000000#32 h (.inl rfl) rfl (ix2 p q)
      = ∑ k : Fin 256, P (ix3 p k q) := by
  refine (Ideal.multiReduction_add_single P 0x00000000#32 h (.inl rfl) rfl (ix2 p q)).trans ?_
  refine Finset.sum_congr rfl fun k _ => congrArg P ?_
  funext a; apply Fin.ext
  match a with
  | ⟨0, _⟩ => rfl
  | ⟨1, _⟩ => rfl
  | ⟨2, _⟩ => rfl

/-- The sum over the columns of an [8192, 256] block, at row r: the 256 entries (r, k). -/
theorem sum_cols_apply (P : FVec Ideal ⟨2, ![8192, 256]⟩ .f32)
    (h : (⟨2, ![8192, 256]⟩ : Shape).Reduces [1] ⟨1, ![8192]⟩) (r : Fin 8192) :
    multiReduction .add [1] ⟨1, ![8192]⟩ P 0x00000000#32 h (.inl rfl) rfl (ix1 r)
      = ∑ k : Fin 256, P (ix2 r k) := by
  refine (Ideal.multiReduction_add_single P 0x00000000#32 h (.inl rfl) rfl (ix1 r)).trans ?_
  refine Finset.sum_congr rfl fun k _ => congrArg P ?_
  funext a; apply Fin.ext
  match a with
  | ⟨0, _⟩ => rfl
  | ⟨1, _⟩ => rfl

end Cert.Pool

end
-- ==== Proof.KernelArray.lean ====
/-
  The kernel's result array, as one function of the argument array.

  The program first moves the channel axis last and merges the two spatial axes, so that the array the
  grid walks over is y[n, k, c] = x[n, c, k / 16, k % 16] of shape [128, 256, 512]. Grid point t takes the
  8 images 8 t … 8 t + 7 as one [8, 256, 512] block, sums it over the middle axis and scales, and writes
  the [8, 512] result as rows 8 t … 8 t + 7 of the [128, 512] output. So what point t writes back is
  block t of the pooled array `Pool.mean x`; the 16 blocks tile the output (row n lies in block n / 8),
  hence the output array ends as `Pool.mean x`.
-/
import proofs.«120569_g2000407027628270_pallasbulk_286_4_alg».proof.Proof.Gen.KernelIdeal.Value
import proofs.«120569_g2000407027628270_pallasbulk_286_4_alg».proof.Proof.PoolSpec
import Idealize.ShloMosaic.Lib.StableHlo.Run

noncomputable section

namespace Cert.KernelIdeal.Pooled

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The array the grid walks over -/

/-- When the region is entered, the staged array is the argument with the channel axis moved last and
    the spatial axes merged. -/
theorem entry_array (c : Dev nD) :
    (V m c main_call0_v1 : S128x256x512.Idx → EReal)
      = shapeCast S128x256x512
          (transpose S128x16x16x512 [0, 2, 3, 1] (m ((c : Thread nD τ).loc main_arg0))
            transposes_S128x512x16x16_S128x16x16x512_0_2_3_1)
          shapeCasts_S128x16x16x512_S128x256x512 := by
  dsimp only [Gen.V, Gen.hostOps0]
  after_results
  rfl

/-- Entry (n, k, c) of it is the argument at (n, c, k / 16, k % 16). -/
theorem entry_array_apply (c : Dev nD) (n : Fin 128) (k : Fin 256) (ch : Fin 512) :
    V m c main_call0_v1 (ix3 n k ch) = m ((c : Thread nD τ).loc main_arg0) (Pool.cell n ch k) :=
  (congrFun (entry_array m c) (ix3 n k ch)).trans
    (Pool.channelsLast_merge_apply (m ((c : Thread nD τ).loc main_arg0)) _ _ n k ch)

/-! ## One grid point -/

/-- The body's result at (p, q) of its block: the sum of the loaded block's 256 entries (p, ·, q), scaled. -/
theorem body_at (P0 : Vec Ideal S8x256x512 .f32) (p : Fin 8) (q : Fin 512) :
    Value.E1 (F := Ideal) P0 (ix2 p q)
      = (∑ k : Fin 256, P0 (ix3 p k q)) * Ideal.ofBits .f32 0x3B800000#32 := by
  show (multiReduction .add [1] S8x512 (shapeCast S8x256x512 P0 shapeCasts_S8x256x512_S8x256x512) 0x00000000#32
      reduces_S8x256x512_S8x512 (.inl rfl) rfl (Value.ix1_0 (ix2 p q))) * Ideal.ofBits .f32 0x3B800000#32 = _
  refine congrArg (· * Ideal.ofBits .f32 0x3B800000#32) ?_
  rw [shapeCast_self]
  have e : Value.ix1_0 (ix2 p q) = ix2 p q := by
    funext a; apply Fin.ext
    match a with
    | ⟨0, _⟩ => rfl
    | ⟨1, _⟩ => rfl
  rw [e]
  exact Pool.sum_mid_apply P0 _ p q

/-- If the loaded block's entries (p, k, q) are the argument's channel (i 0, i 1), the body's result at
    (p, q) is the pooled value at i. -/
theorem point_value (x : Pool.SIn.Idx → EReal) (P0 : Vec Ideal S8x256x512 .f32) (p : Fin 8) (q : Fin 512)
    (i : Pool.SOut.Idx) (hP : ∀ k : Fin 256, P0 (ix3 p k q) = x (Pool.cell (i 0) (i 1) k)) :
    Value.E1 (F := Ideal) P0 (ix2 p q) = Pool.mean x i := by
  refine (body_at P0 p q).trans ?_
  show _ = (∑ k : Fin 256, x (Pool.cell (i 0) (i 1) k)) * Ideal.ofBits .f32 0x3B800000#32
  rw [Finset.sum_congr rfl fun k _ => hP k]

/-! ## From blocks to the array -/

theorem off_zero3 : (![0, 0, 0] : Fin 3 → Nat) = fun _ => 0 := funext fun a => by fin_cases a <;> rfl

/-- The printed index maps, decided over the 16 grid points: point t takes block (t, 0, 0) of the staged
    array and writes block (t, 0) of the output. -/
theorem idx_facts : ∀ t : Fin cfg0.N, win0_0.index t (0 : Fin 3) = t.val
    ∧ win0_0.index t (1 : Fin 3) = 0
    ∧ win0_0.index t (2 : Fin 3) = 0
    ∧ win0_1.index t (0 : Fin 2) = t.val
    ∧ win0_1.index t (1 : Fin 2) = 0
    ∧ t.val < 16 :=
  (by decide +kernel : ∀ t : Fin grid0.N, _)

/-- WHAT POINT t WRITES BACK is block t of the pooled array of the argument. -/
theorem flushed_eq (c : Dev nD) (t : Fin cfg0.N) :
    (dats m 0 c).flushed 1 t
      = ((cfg0.win 1).blk t).view.read (Elt Ideal) (Pool.mean (m ((c : Thread nD τ).loc main_arg0))) := by
  rw [Value.flushed1]
  unfold out0_1
  simp only [View.ld_unit_zero (S := S8x256x512) off_zero3]
  obtain ⟨e0, e1, e2, e3, e4, e5⟩ := idx_facts t
  funext j
  obtain ⟨p, q, rfl⟩ : ∃ (p : Fin 8) (q : Fin 512), j = ix2 p q := ⟨j 0, j 1, eq_ix2 j⟩
  show (View.canon [⟨r0_1, k0_pay1 (iblk m c 0 t)⟩] : Vec Ideal S8x512 .f32) (ix2 p q)
    = Pool.mean (m ((c : Thread nD τ).loc main_arg0)) (((cfg0.win 1).blk t).view.emb (ix2 p q))
  refine (Value.canon1_eq (iblk m c 0 t) (ix2 p q)).trans ?_
  refine point_value (m ((c : Thread nD τ).loc main_arg0)) (iblk m c 0 t) p q _ fun k => ?_
  have hp : p.val < 8 := p.isLt
  show V m c main_call0_v1 (((cfg0.win 0).blk t).view.emb (ix3 p k q)) = _
  have hemb : ((cfg0.win 0).blk t).view.emb (ix3 p k q)
      = ix3 (⟨t.val * 8 + p.val, by omega⟩ : Fin 128) k q := by
    funext a; apply Fin.ext
    match a with
    | ⟨0, _⟩ => show win0_0.index t (0 : Fin 3) * 8 + 1 * p.val = t.val * 8 + p.val; omega
    | ⟨1, _⟩ => show win0_0.index t (1 : Fin 3) * 256 + 1 * k.val = k.val; omega
    | ⟨2, _⟩ => show win0_0.index t (2 : Fin 3) * 512 + 1 * q.val = q.val; omega
  rw [hemb]
  refine (entry_array_apply m c _ k q).trans ?_
  refine congrArg (m ((c : Thread nD τ).loc main_arg0)) ?_
  funext a; apply Fin.ext
  match a with
  | ⟨0, _⟩ => show t.val * 8 + p.val = win0_1.index t (0 : Fin 2) * 8 + 1 * p.val; omega
  | ⟨1, _⟩ => show q.val = win0_1.index t (1 : Fin 2) * 512 + 1 * q.val; omega
  | ⟨2, _⟩ => rfl
  | ⟨3, _⟩ => rfl

/-- An index of the output is in point t's block iff each coordinate is in the block's range on its axis. -/
theorem mem_blk (t : Fin cfg0.N) (i : S128x512.Idx) :
    i ∈ ((cfg0.win 1).blk t).view.set ↔ ∀ a : Fin 2, win0_1.index t a * S8x512.size a ≤ (i a).val
      ∧ (i a).val < win0_1.index t a * S8x512.size a + S8x512.size a := by
  show i ∈ ((View.whole main_v0).slice (win0_1.rect t)).set ↔ _
  rw [View.set_slice_whole, Rect.mem_set_unit]
  exact Iff.rfl

/-- Every index of the output is in some point's block: row n is in block n / 8. -/
theorem covered (i : S128x512.Idx) :
    ∃ t : Fin cfg0.N, (cfg0.win 1).flush t = true ∧ i ∈ ((cfg0.win 1).blk t).view.set := by
  have hi0 : (i 0).val < 128 := (i 0).isLt
  have hi1 : (i 1).val < 512 := (i 1).isLt
  have hN : grid0.N = 16 := N_0
  have ht : (i 0).val / 8 < grid0.N := by rw [hN]; omega
  obtain ⟨e0, e1, e2, e3, e4, e5⟩ := idx_facts ⟨(i 0).val / 8, ht⟩
  refine ⟨⟨(i 0).val / 8, ht⟩, flush0_1 _, ?_⟩
  rw [mem_blk]
  intro a
  match a with
  | ⟨0, _⟩ =>
    show win0_1.index ⟨(i 0).val / 8, ht⟩ (0 : Fin 2) * 8 ≤ (i 0).val
      ∧ (i 0).val < win0_1.index ⟨(i 0).val / 8, ht⟩ (0 : Fin 2) * 8 + 8
    have e3' : win0_1.index ⟨(i 0).val / 8, ht⟩ (0 : Fin 2) = (i 0).val / 8 := e3
    omega
  | ⟨1, _⟩ =>
    show win0_1.index ⟨(i 0).val / 8, ht⟩ (1 : Fin 2) * 512 ≤ (i 1).val
      ∧ (i 1).val < win0_1.index ⟨(i 0).val / 8, ht⟩ (1 : Fin 2) * 512 + 512
    omega

/-- THE OUTPUT ARRAY after the run is the pooled array of the argument. -/
theorem final (c : Dev nD) :
    (dats m 0 c).arrAt 1 cfg0.N = Pool.mean (m ((c : Thread nD τ).loc main_arg0)) :=
  (dats m 0 c).arrAt_eq_of_cover 1 (Pool.mean (m ((c : Thread nD τ).loc main_arg0)))
    (fun t _ => flushed_eq m c t) covered

/-- The run: every weakly fair execution ends with the result at the pooled array of the argument, and
    the argument unchanged. -/
theorem run : θ_run defs (onTc (τ := τ) (main (F := Ideal))) ⟨m, fun _ => 0, ρ⟩ fun r => ∀ c : Dev nD,
      r.2.mem ((c : Thread nD τ).loc main_v0) = Pool.mean (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.Pooled

end
-- ==== Proof.ReferenceArray.lean ====
/-
  The reference's result array, as one function of the argument array.

  The reference merges (image, channel) into one axis of 65536 rows and the two spatial axes into one of
  256 columns: x2[r, k] = x[r / 512, r % 512, k / 16, k % 16]. Grid point t takes rows 8192 t … 8192 t + 8191
  as one [8192, 256] block, sums each row, scales, and writes the [8192, 1] column as the same rows of a
  [65536, 1] output. So what point t writes back is block t of the column `Pool.meanCol x`; the 8 blocks tile
  the column (row r lies in block r / 8192). After the region the column is viewed as [128, 512]: entry
  (n, c) is row 512 n + c, the pooled value at (n, c).
-/
import proofs.«120569_g2000407027628270_pallasbulk_286_4_alg».proof.Proof.Gen.ReferenceIdeal.Frame
import proofs.«120569_g2000407027628270_pallasbulk_286_4_alg».proof.Proof.PoolSpec
import Idealize.ShloMosaic.Lib.StableHlo.Run

noncomputable section

namespace Cert.ReferenceIdeal.Pooled

open Cert.ReferenceIdeal Cert.ReferenceIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The array the grid walks over -/

/-- When the region is entered, the staged array is the argument viewed as [65536, 256]. -/
theorem entry_array (c : Dev nD) :
    (V m c main_v0 : S65536x256.Idx → EReal)
      = shapeCast S65536x256 (m ((c : Thread nD τ).loc main_arg0)) shapeCasts_S128x512x16x16_S65536x256 := by
  show StableHlo.after hostOps0 (fun b => m (c, b)) (Proc.devRef .tc main_v0) = _
  after_results
  rfl

/-- Entry (512 n + c, k) of it is the argument at (n, c, k / 16, k % 16). -/
theorem entry_array_apply (c : Dev nD) (n : Fin 128) (ch : Fin 512) (k : Fin 256) (r : Fin 65536)
    (hr : r.val = n.val * 512 + ch.val) :
    V m c main_v0 (ix2 r k) = m ((c : Thread nD τ).loc main_arg0) (Pool.cell n ch k) :=
  (congrFun (entry_array m c) (ix2 r k)).trans
    (Pool.rows_merge_apply (m ((c : Thread nD τ).loc main_arg0)) _ n ch k r hr)

/-! ## One grid point -/

/-- The body's result at row r of its block: the sum of the loaded block's row r, scaled. -/
theorem body_at (P0 : Vec Ideal S8192x256 .f32) (r : Fin 8192) (z : Fin 1) :
    k0_pay1 (F := Ideal) P0 (ix2 r z)
      = (∑ k : Fin 256, P0 (ix2 r k)) * Ideal.ofBits .f32 0x3B800000#32 := by
  show (shapeCast S8192x1 (multiReduction .add [1] S8192 (shapeCast S8192x256 P0 shapeCasts_S8192x256_S8192x256)
      0x00000000#32 reduces_S8192x256_S8192 (.inl rfl) rfl) shapeCasts_S8192_S8192x1 (ix2 r z))
      * Ideal.ofBits .f32 0x3B800000#32 = _
  refine congrArg (· * Ideal.ofBits .f32 0x3B800000#32) ?_
  rw [shapeCast_self]
  refine (Pool.vec_col_apply _ _ r z).trans ?_
  exact Pool.sum_cols_apply P0 _ r

/-- If the loaded block's row r is the argument's channel of row i 0 of the merged axis, the body's
    result at row r is the column's value at i. -/
theorem point_value (x : Pool.SIn.Idx → EReal) (P0 : Vec Ideal S8192x256 .f32) (r : Fin 8192) (z : Fin 1)
    (i : (⟨2, ![65536, 1]⟩ : Shape).Idx)
    (hP : ∀ k : Fin 256, P0 (ix2 r k) = x (Pool.cell (Pool.imgOf (i 0)) (Pool.chanOf (i 0)) k)) :
    k0_pay1 (F := Ideal) P0 (ix2 r z) = Pool.meanCol x i := by
  refine (body_at P0 r z).trans ?_
  show _ = (∑ k : Fin 256, x (Pool.cell (Pool.imgOf (i 0)) (Pool.chanOf (i 0)) k)) * Ideal.ofBits .f32 0x3B800000#32
  rw [Finset.sum_congr rfl fun k _ => hP k]

/-! ## From blocks to the column -/

theorem off_zero2 : (![0, 0] : Fin 2 → Nat) = fun _ => 0 := funext fun a => by fin_cases a <;> rfl

/-- The printed index maps, decided over the 8 grid points: point t takes block (t, 0) of the staged
    array and writes block (t, 0) of the column. -/
theorem idx_facts : ∀ t : Fin cfg0.N, win0_0.index t (0 : Fin 2) = t.val
    ∧ win0_0.index t (1 : Fin 2) = 0
    ∧ win0_1.index t (0 : Fin 2) = t.val
    ∧ win0_1.index t (1 : Fin 2) = 0
    ∧ t.val < 8 :=
  (by decide +kernel : ∀ t : Fin grid0.N, _)

/-- WHAT POINT t WRITES BACK is block t of the pooled column of the argument. -/
theorem flushed_eq (c : Dev nD) (t : Fin cfg0.N) :
    (dats m 0 c).flushed 1 t
      = ((cfg0.win 1).blk t).view.read (Elt Ideal) (Pool.meanCol (m ((c : Thread nD τ).loc main_arg0))) := by
  show (cfg0.win 1).cut (grid0.coords t) ((dats m 0 c).after 1 t) = _
  rw [after0_1]
  unfold out0_1
  rw [View.canon_unit_zero off_zero2]
  simp only [View.ld_unit_zero (S := S8192x256) off_zero2]
  obtain ⟨e0, e1, e2, e3, e4⟩ := idx_facts t
  funext j
  obtain ⟨r, z, rfl⟩ : ∃ (r : Fin 8192) (z : Fin 1), j = ix2 r z := ⟨j 0, j 1, eq_ix2 j⟩
  show k0_pay1 (F := Ideal) (iblk m c 0 t) (ix2 r z)
    = Pool.meanCol (m ((c : Thread nD τ).loc main_arg0)) (((cfg0.win 1).blk t).view.emb (ix2 r z))
  refine point_value (m ((c : Thread nD τ).loc main_arg0)) (iblk m c 0 t) r z _ fun k => ?_
  have hr : r.val < 8192 := r.isLt
  show V m c main_v0 (((cfg0.win 0).blk t).view.emb (ix2 r k)) = _
  have hemb : ((cfg0.win 0).blk t).view.emb (ix2 r k)
      = ix2 (⟨t.val * 8192 + r.val, by omega⟩ : Fin 65536) k := by
    funext a; apply Fin.ext
    match a with
    | ⟨0, _⟩ => show win0_0.index t (0 : Fin 2) * 8192 + 1 * r.val = t.val * 8192 + r.val; omega
    | ⟨1, _⟩ => show win0_0.index t (1 : Fin 2) * 256 + 1 * k.val = k.val; omega
  rw [hemb]
  refine entry_array_apply m c _ _ k _ ?_
  show t.val * 8192 + r.val
    = (win0_1.index t (0 : Fin 2) * 8192 + 1 * r.val) / 512 * 512 + (win0_1.index t (0 : Fin 2) * 8192 + 1 * r.val) % 512
  omega

/-- An index of the column is in point t's block iff each coordinate is in the block's range on its axis. -/
theorem mem_blk (t : Fin cfg0.N) (i : S65536x1.Idx) :
    i ∈ ((cfg0.win 1).blk t).view.set ↔ ∀ a : Fin 2, win0_1.index t a * S8192x1.size a ≤ (i a).val
      ∧ (i a).val < win0_1.index t a * S8192x1.size a + S8192x1.size a := by
  show i ∈ ((View.whole main_v1).slice (win0_1.rect t)).set ↔ _
  rw [View.set_slice_whole, Rect.mem_set_unit]
  exact Iff.rfl

/-- Every index of the column is in some point's block: row r is in block r / 8192. -/
theorem covered (i : S65536x1.Idx) :
    ∃ t : Fin cfg0.N, (cfg0.win 1).flush t = true ∧ i ∈ ((cfg0.win 1).blk t).view.set := by
  have hi0 : (i 0).val < 65536 := (i 0).isLt
  have hi1 : (i 1).val < 1 := (i 1).isLt
  have hN : grid0.N = 8 := N_0
  have ht : (i 0).val / 8192 < grid0.N := by rw [hN]; omega
  obtain ⟨e0, e1, e2, e3, e4⟩ := idx_facts ⟨(i 0).val / 8192, ht⟩
  refine ⟨⟨(i 0).val / 8192, ht⟩, flush0_1 _, ?_⟩
  rw [mem_blk]
  intro a
  match a with
  | ⟨0, _⟩ =>
    show win0_1.index ⟨(i 0).val / 8192, ht⟩ (0 : Fin 2) * 8192 ≤ (i 0).val
      ∧ (i 0).val < win0_1.index ⟨(i 0).val / 8192, ht⟩ (0 : Fin 2) * 8192 + 8192
    have e2' : win0_1.index ⟨(i 0).val / 8192, ht⟩ (0 : Fin 2) = (i 0).val / 8192 := e2
    omega
  | ⟨1, _⟩ =>
    show win0_1.index ⟨(i 0).val / 8192, ht⟩ (1 : Fin 2) * 1 ≤ (i 1).val
      ∧ (i 1).val < win0_1.index ⟨(i 0).val / 8192, ht⟩ (1 : Fin 2) * 1 + 1
    omega

/-- THE COLUMN after the region is the pooled column of the argument. -/
theorem final (c : Dev nD) :
    (dats m 0 c).arrAt 1 cfg0.N = Pool.meanCol (m ((c : Thread nD τ).loc main_arg0)) :=
  (dats m 0 c).arrAt_eq_of_cover 1 (Pool.meanCol (m ((c : Thread nD τ).loc main_arg0)))
    (fun t _ => flushed_eq m c t) covered

/-! ## The view as [128, 512] after the region -/

/-- The result: the column viewed as [128, 512] is the pooled array of the argument. -/
theorem result_eq (c : Dev nD) :
    Pipeline.afterTail₀ cfgs (dats m) 0 (V0 m) [hostOps1] c main_v2
      = Pool.mean (m ((c : Thread nD τ).loc main_arg0)) := by
  unfold Pipeline.afterTail₀
  show StableHlo.after hostOps1 _ (Proc.devRef .tc main_v2) = _
  after_results
  have hw : Pipeline.withArrays (cfgs 0).spec c (V0 m c) (fun w => (dats m 0 c).arrAt w (cfgs 0).N)
        (Proc.devRef .tc main_v1)
      = Pool.meanCol (m ((c : Thread nD τ).loc main_arg0)) :=
    (Pipeline.withArrays_arr spec0 launch0.win.arr_inj c _ _ 1).trans (final m c)
  rw [hw]
  funext i
  obtain ⟨n, ch, rfl⟩ : ∃ (n : Fin 128) (ch : Fin 512), i = ix2 n ch := ⟨i 0, i 1, eq_ix2 i⟩
  show shapeCast S128x512 (Pool.meanCol (m ((c : Thread nD τ).loc main_arg0))) shapeCasts_S65536x1_S128x512 (ix2 n ch) = _
  refine (Pool.col_split_apply _ _ n ch).trans ?_
  exact Pool.meanCol_row _ n ch

/-- The run: every weakly fair execution ends with the result at the pooled array of the argument, and
    the argument unchanged. -/
theorem run : θ_run defs (onTc (τ := τ) (main (F := Ideal))) ⟨m, fun _ => 0, ρ⟩ fun r => ∀ c : Dev nD,
      r.2.mem ((c : Thread nD τ).loc main_v2) = Pool.mean (m ((c : Thread nD τ).loc main_arg0))
      ∧ r.2.mem ((c : Thread nD τ).loc main_arg0) = m ((c : Thread nD τ).loc main_arg0) :=
  (θ_run defs _ _).mono (fun r h c =>
      ⟨((h c).2 main_v2 (Pipeline.mem_restRefs_of main_v2 (by decide) (by decide))).trans (result_eq m c),
        ((h c).2 main_arg0 (Pipeline.mem_restRefs_of main_arg0 (by decide) (by decide))).trans
          (W_main_arg0 m (dats m) c)⟩)
    (run_main m ρ)

end Cert.ReferenceIdeal.Pooled

end
-- ==== Proof.lean ====
/-
  Global average pooling: a kernel that sums over the spatial positions along the sublane direction of a
  channels-last view, against a reference that sums them along the lanes of a (image·channel)-by-position
  view. Both return, at (n, c),
      (∑ k < 256, x[n, c, k / 16, k % 16]) · s,       s the value of the f32 word 0x3B800000 (1/256),
  on the extended reals: each program's lane sum starts from the zero word, which is the neutral element,
  and multiplies by the same scale word. The two programs differ only in how they lay the argument out
  before summing and in how they tile the rows over their grids (16 blocks of 8 images against 8 blocks of
  8192 rows); at the exact values a finite sum does not depend on either, and here even the order of the
  256 terms is the same. Nothing in the argument needs the entries to be finite, so the precondition is
  never opened.

  `Pool.mean` (PoolSpec) is the common function; KernelArray shows the kernel's result array is
  `Pool.mean` of its argument, ReferenceArray the same for the reference. The idealization rewrote no
  operation, so there is nothing to preserve; the three frames are the generated ones.
-/
import proofs.«120569_g2000407027628270_pallasbulk_286_4_alg».proof.Defs
import proofs.«120569_g2000407027628270_pallasbulk_286_4_alg».proof.Proof.Gen.Kernel
import proofs.«120569_g2000407027628270_pallasbulk_286_4_alg».proof.Proof.Gen.Kernel.Frame
import proofs.«120569_g2000407027628270_pallasbulk_286_4_alg».proof.Proof.Gen.KernelIdeal
import proofs.«120569_g2000407027628270_pallasbulk_286_4_alg».proof.Proof.Gen.KernelIdeal.Frame
import proofs.«120569_g2000407027628270_pallasbulk_286_4_alg».proof.Proof.Gen.ReferenceIdeal
import proofs.«120569_g2000407027628270_pallasbulk_286_4_alg».proof.Proof.Gen.ReferenceIdeal.Frame
import proofs.«120569_g2000407027628270_pallasbulk_286_4_alg».proof.Proof.Gen.Pre_finite_inputs
import proofs.«120569_g2000407027628270_pallasbulk_286_4_alg».proof.Proof.KernelArray
import proofs.«120569_g2000407027628270_pallasbulk_286_4_alg».proof.Proof.ReferenceArray
import Idealize.ShloMosaic.Adequacy
import Idealize.ShloMosaic.Init

noncomputable section

namespace Cert.Proof

open Idealize.ShloMosaic Idealize.SL.Sem

/-- Each program runs to the end without a fault and leaves its argument as it was. -/
theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ => Cert.ReferenceIdeal.Gen.frame m ρ

/-- The idealized kernel is the kernel's own text read at the exact values: no rewrite to justify. -/
theorem preserves : Cert.preserves_Kernel_KernelIdeal := trivial

/-- From memories that agree on the argument, both idealized programs end with the pooled array of that
    argument as their result. -/
theorem algebraic : Cert.algebraic_KernelIdeal_ReferenceIdeal := by
  intro m ρ m' ρ' _ hagree
  refine ⟨fun c => Cert.Pool.mean (m ((c.tc : Thread Cert.KernelIdeal.nD Cert.KernelIdeal.τ).loc Cert.KernelIdeal.main_arg0)),
    Cert.KernelIdeal.Pooled.run m ρ, ?_⟩
  refine (θ_run Cert.ReferenceIdeal.defs _ _).mono (fun r h c => ⟨(h c).1.trans ?_, (h c).2⟩)
    (Cert.ReferenceIdeal.Pooled.run m' ρ')
  rw [hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
